-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 67
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S64x64, .bf16⟩
  | .hbm, ⟨42, _⟩ => ⟨S64x64, .f32⟩
  | .hbm, ⟨43, _⟩ => ⟨S64x64, .bf16⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S64x64, .f32⟩
  | .hbm, ⟨62, _⟩ => ⟨S64x64, .bf16⟩
  | .hbm, ⟨63, _⟩ => ⟨S64x64, .f32⟩
  | .hbm, ⟨64, _⟩ => ⟨S64x64, .bf16⟩
  | .hbm, ⟨65, _⟩ => ⟨S1x64, .f32⟩
  | .hbm, ⟨66, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .bf16⟩
  | .local _ .vmem, ⟨5, _⟩ => ⟨S1x64, .f32⟩
  | .local _ .vmem, ⟨6, _⟩ => ⟨S64x64, .bf16⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .bf16⟩
  | .local _ .vmem, ⟨14, _⟩ => ⟨S1x64, .f32⟩
  | .local _ .vmem, ⟨15, _⟩ => ⟨S64x64, .bf16⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bitsLt_bf16_f32 : FTy.bits .bf16 < FTy.bits .f32
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S64x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000, .f32⟩
  | .hbm, ⟨51, _⟩ => ⟨S100000x1, .f32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S64x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S64x64, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000, .f32⟩
  | .hbm, ⟨87, _⟩ => ⟨S100000x1, .f32⟩
  | .hbm, ⟨88, _⟩ => ⟨S100000x1, .f32⟩
  | .hbm, ⟨89, _⟩ => ⟨S_, .f32⟩
  | .hbm, ⟨90, _⟩ => ⟨S100000x1, .f32⟩
  | .hbm, ⟨91, _⟩ => ⟨S100000x1, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_call0_v2 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_cst : Ref sig .tc := ⟨.hbm, 58, rfl⟩
abbrev main_call1_v0 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call2_v0 : Ref sig .tc := ⟨.hbm, 84, rfl⟩
abbrev main_call2_cst : Ref sig .tc := ⟨.hbm, 85, rfl⟩
abbrev main_call2_v1 : Ref sig .tc := ⟨.hbm, 86, rfl⟩
abbrev main_call2_v2 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call3_cst : Ref sig .tc := ⟨.hbm, 94, rfl⟩
abbrev main_call3_v0 : Ref sig .tc := ⟨.hbm, 95, rfl⟩
abbrev main_v64 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with its result named.

  The program is four stretches: host operations, the first pallas_call, host operations, the second pallas_call.
  Its run through the library's several-regions launch theorem ends with every unscoped buffer at the contents
  `Gen.W4` — the fold of the host stretches and of the two regions' write-backs from the launch memory. Read at the
  result's buffer this names the result; read at an argument it is the launch contents.
-/
import proofs.«105326_j22162031247565_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result's buffer at the last
    boundary's contents and the arguments as launched. -/
theorem run_result : θ_run defs (onTc (τ := τ) (main (F := F))) ⟨m, fun _ => 0, ρ⟩ (fun r => ∀ c : Dev nD,
      r.2.mem ((c.tc : Thread nD τ).loc main_v48) = W4 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v48 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.NormLayer.lean ====
/-
  One layer's dense part, row by row, on the extended reals.

  A row of the output depends on ONE row `a` of the aggregated neighbour features and ONE row `x` of the node's own
  features, and on the two weight matrices and the bias:
      lin q  = (∑ k, a k · W₁ k q) + b q + ∑ k, x k · W₂ k q          (the affine part)
      out q  = max (lin q / max (√(∑ j, lin j · lin j)) ε) 0          (divide by the row's clamped length, rectify)
  with ε the single-precision word 0x2B8CBCCC. `dense m` lays these rows out as an `[m, 64]` array: entry `(p, q)` is
  `out q` of rows `p` of the two operands. Because a row of the result reads only the same row of the operands, a block
  of consecutive rows of `dense` is `dense` of the blocks (`dense_rows`).
-/
import Idealize.ShloMosaic.Lib.ValueIdx
import Idealize.ShloMosaic.PureOps.Ideal.Laws

noncomputable section

namespace Cert.SageNorm

open Idealize.ShloMosaic Idealize.ShloMosaic.ValueIdx

/-- The clamp of a row's length: the word `0x2B8CBCCC` read as an extended real. -/
abbrev eps : EReal := Ideal.ofBits .f32 0x2B8CBCCC#32

/-- The affine part of one row at column `q`. -/
def lin (a x : Fin 64 → EReal) (W₁ : Fin 64 → Fin 64 → EReal) (b : Fin 64 → EReal) (W₂ : Fin 64 → Fin 64 → EReal)
    (q : Fin 64) : EReal :=
  (∑ k : Fin 64, a k * W₁ k q) + b q + ∑ k : Fin 64, x k * W₂ k q

/-- One row of the layer's output at column `q`: the affine part over the row's clamped Euclidean length, rectified. -/
def rowOut (a x : Fin 64 → EReal) (W₁ : Fin 64 → Fin 64 → EReal) (b : Fin 64 → EReal) (W₂ : Fin 64 → Fin 64 → EReal)
    (q : Fin 64) : EReal :=
  max (Ideal.div (lin a x W₁ b W₂ q)
        (max (Ideal.sqrt (∑ j : Fin 64, lin a x W₁ b W₂ j * lin a x W₁ b W₂ j)) eps))
      (Ideal.ofBits .f32 0x00000000#32)

/-- The dense part over `m` rows: entry `(p, q)` is `rowOut` of rows `p` of `A` and `X`; the weights are read as
    `W k q`, the bias from its one row. -/
def dense (m : ℕ) (A X : (⟨2, ![m, 64]⟩ : Shape).Idx → EReal) (W₁ : (⟨2, ![64, 64]⟩ : Shape).Idx → EReal)
    (b : (⟨2, ![1, 64]⟩ : Shape).Idx → EReal) (W₂ : (⟨2, ![64, 64]⟩ : Shape).Idx → EReal) :
    (⟨2, ![m, 64]⟩ : Shape).Idx → EReal :=
  fun i => rowOut (fun k => A (ix2 (i 0 : Fin m) k)) (fun k => X (ix2 (i 0 : Fin m) k))
    (fun k q => W₁ (ix2 k q)) (fun q => b (ix2 (0 : Fin 1) q)) (fun k q => W₂ (ix2 k q)) (i 1 : Fin 64)

theorem dense_apply (m : ℕ) (A X : (⟨2, ![m, 64]⟩ : Shape).Idx → EReal) (W₁ : (⟨2, ![64, 64]⟩ : Shape).Idx → EReal)
    (b : (⟨2, ![1, 64]⟩ : Shape).Idx → EReal) (W₂ : (⟨2, ![64, 64]⟩ : Shape).Idx → EReal) (p : Fin m) (q : Fin 64) :
    dense m A X W₁ b W₂ (ix2 p q)
      = rowOut (fun k => A (ix2 p k)) (fun k => X (ix2 p k)) (fun k q => W₁ (ix2 k q)) (fun q => b (ix2 (0 : Fin 1) q))
          (fun k q => W₂ (ix2 k q)) q := rfl

/-- A row of `dense` reads only that row of its operands: if row `p'` of `A'`, `X'` (over `m'` rows) is row `p` of
    `A`, `X` (over `m` rows), the two results agree there. -/
theorem dense_rows {m m' : ℕ} (A X : (⟨2, ![m, 64]⟩ : Shape).Idx → EReal) (A' X' : (⟨2, ![m', 64]⟩ : Shape).Idx → EReal)
    (W₁ : (⟨2, ![64, 64]⟩ : Shape).Idx → EReal) (b : (⟨2, ![1, 64]⟩ : Shape).Idx → EReal)
    (W₂ : (⟨2, ![64, 64]⟩ : Shape).Idx → EReal) (p : Fin m) (p' : Fin m') (q : Fin 64)
    (hA : ∀ k : Fin 64, A' (ix2 p' k) = A (ix2 p k)) (hX : ∀ k : Fin 64, X' (ix2 p' k) = X (ix2 p k)) :
    dense m' A' X' W₁ b W₂ (ix2 p' q) = dense m A X W₁ b W₂ (ix2 p q) := by
  rw [dense_apply, dense_apply]
  have eA : (fun k => A' (ix2 p' k)) = fun k => A (ix2 p k) := funext hA
  have eX : (fun k => X' (ix2 p' k)) = fun k => X (ix2 p k) := funext hX
  rw [eA, eX]

/-- The same with the weights and the bias given twice: a block of rows of `dense` over `m` rows is `dense` over the
    block's `m'` rows, when the block's row `p'` is row `p` of the operands and the weights and the bias agree. -/
theorem dense_block {m m' : ℕ} (A X : (⟨2, ![m, 64]⟩ : Shape).Idx → EReal) (A' X' : (⟨2, ![m', 64]⟩ : Shape).Idx → EReal)
    (W₁ W₁' : (⟨2, ![64, 64]⟩ : Shape).Idx → EReal) (b b' : (⟨2, ![1, 64]⟩ : Shape).Idx → EReal)
    (W₂ W₂' : (⟨2, ![64, 64]⟩ : Shape).Idx → EReal) (p : Fin m) (p' : Fin m') (q : Fin 64)
    (hA : ∀ k : Fin 64, A' (ix2 p' k) = A (ix2 p k)) (hX : ∀ k : Fin 64, X' (ix2 p' k) = X (ix2 p k))
    (hW₁ : W₁' = W₁) (hb : b' = b) (hW₂ : W₂' = W₂) :
    dense m' A' X' W₁' b' W₂' (ix2 p' q) = dense m A X W₁ b W₂ (ix2 p q) := by
  subst hW₁ hb hW₂
  exact dense_rows A X A' X' _ _ _ p p' q hA hX

end Cert.SageNorm

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«105326_j22162031247565_1_alg».proof.Proof.LibDotIdx
import proofs.«105326_j22162031247565_1_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.KernelBody.lean ====
/-
  What one grid point's body computes, read at an index of its block.

  The body of either pallas_call loads a block of 5000 rows of the aggregated features and of the node features,
  the two weight matrices (already transposed and narrowed on the host; narrowing is the identity on extended reals)
  and the bias as one row, and stores
      max (h / max (√(row sums of h·h)) ε) 0,     h = A·W₁ + bias row + X·W₂.
  Read at `(p, q)` this is `SageNorm.rowOut` of rows `p` of the two blocks: the products into a zero accumulator
  are plain sums over the contracted coordinate, the bias row laid down the rows reads its entry `q`, the sum along
  a row of the squares is a sum over the row, and the column of row lengths laid along the columns reads its entry
  `p`. So each body's stored value is `SageNorm.dense 5000` of its loads.
-/
import proofs.«105326_j22162031247565_1_alg».proof.Proof.Gen.KernelIdeal.Skeleton
import proofs.«105326_j22162031247565_1_alg».proof.Proof.NormLayer
import proofs.«105326_j22162031247565_1_alg».proof.Proof.LibRowOps
import Idealize.ShloMosaic.Lib.ValueLayout

noncomputable section

namespace Cert.KernelIdeal.Body

open Idealize.ShloMosaic Idealize.ShloMosaic.ValueIdx Cert.KernelIdeal Cert.KernelIdeal.Facts₀
open Cert.KernelIdeal.Gen (k0_pay1 k1_pay1)
open Cert.SageNorm

/-- The affine part of a block: the two products into zero accumulators and the bias row laid down the rows. -/
def affine (x0 x1 : FVec Ideal S5000x64 .f32) (x2 : FVec Ideal S64x64 .bf16) (x3 : FVec Ideal S1x64 .f32)
    (x4 : FVec Ideal S64x64 .bf16) : FVec Ideal S5000x64 .f32 :=
  addf (addf (matmul dot_S5000x64_S64x64_S5000x64_1_0_0_1_n_n none (truncf .bf16 x0 bitsLt_bf16_f32) x2
      (constant S5000x64 .f32 0x00000000#32)) (broadcastTo S5000x64 x3 broadcasts_S1x64_S5000x64))
    (matmul dot_S5000x64_S64x64_S5000x64_1_0_0_1_n_n none (truncf .bf16 x1 bitsLt_bf16_f32) x4
      (constant S5000x64 .f32 0x00000000#32))

/-- The sums of the squares along the rows. -/
def rowSq (H : FVec Ideal S5000x64 .f32) : FVec Ideal S5000 .f32 :=
  multiReduction .add [1] S5000 (mulf H H) 0x00000000#32 reduces_S5000x64_S5000 (.inl rfl) rfl

/-- The rows' clamped lengths, as one column. -/
def rowLen (H : FVec Ideal S5000x64 .f32) : FVec Ideal S5000x1 .f32 :=
  maximumf (sqrt (shapeCast S5000x1 (rowSq H) shapeCasts_S5000_S5000x1))
    (broadcast S5000x1 (Scalar.ofBits .f32 0x2B8CBCCC#32))

/-- Every row over its clamped length, rectified. -/
def normalized (H : FVec Ideal S5000x64 .f32) : FVec Ideal S5000x64 .f32 :=
  maximumf (divf H (broadcastTo S5000x64 (rowLen H) broadcasts_S5000x1_S5000x64))
    (broadcast S5000x64 (Scalar.ofBits .f32 0x00000000#32))

theorem affine_apply (x0 x1 : FVec Ideal S5000x64 .f32) (x2 : FVec Ideal S64x64 .bf16) (x3 : FVec Ideal S1x64 .f32)
    (x4 : FVec Ideal S64x64 .bf16) (p : Fin 5000) (q : Fin 64) :
    affine x0 x1 x2 x3 x4 (ix2 p q)
      = lin (fun k => x0 (ix2 p k)) (fun k => x1 (ix2 p k)) (fun k q => x2 (ix2 k q)) (fun q => x3 (ix2 (0 : Fin 1) q))
          (fun k q => x4 (ix2 k q)) q := by
  have e1 := DotIdx.matmul_plain_zero_apply dot_S5000x64_S64x64_S5000x64_1_0_0_1_n_n_wf none
    (truncf .bf16 x0 bitsLt_bf16_f32) x2 p q
  have e2 := DotIdx.matmul_plain_zero_apply dot_S5000x64_S64x64_S5000x64_1_0_0_1_n_n_wf none
    (truncf .bf16 x1 bitsLt_bf16_f32) x4 p q
  have e3 := broadcastTo_1b_ab_apply x3 broadcasts_S1x64_S5000x64 p q
  show matmul dot_S5000x64_S64x64_S5000x64_1_0_0_1_n_n none (truncf .bf16 x0 bitsLt_bf16_f32) x2
        (constant S5000x64 .f32 0x00000000#32) (ix2 p q)
      + broadcastTo S5000x64 x3 broadcasts_S1x64_S5000x64 (ix2 p q)
      + matmul dot_S5000x64_S64x64_S5000x64_1_0_0_1_n_n none (truncf .bf16 x1 bitsLt_bf16_f32) x4
        (constant S5000x64 .f32 0x00000000#32) (ix2 p q) = _
  exact congrArg₂ (· + ·) (congrArg₂ (· + ·) e1 e3) e2

theorem rowSq_apply (H : FVec Ideal S5000x64 .f32) (p : Fin 5000) :
    rowSq H (ix1 p) = ∑ j : Fin 64, H (ix2 p j) * H (ix2 p j) :=
  Cert.LibRowOps.rowSum_kernel_apply (mulf H H) 0x00000000#32 reduces_S5000x64_S5000 (.inl rfl) rfl p

theorem rowLen_apply (H : FVec Ideal S5000x64 .f32) (p : Fin 5000) :
    rowLen H (ix2 p (0 : Fin 1)) = max (Ideal.sqrt (∑ j : Fin 64, H (ix2 p j) * H (ix2 p j))) eps := by
  have e := Cert.SupCon.Ker.shapeCast_a_a1_apply (rowSq H) shapeCasts_S5000_S5000x1 p (0 : Fin 1)
  show max (Ideal.sqrt (shapeCast S5000x1 (rowSq H) shapeCasts_S5000_S5000x1 (ix2 p (0 : Fin 1)))) eps = _
  rw [e, rowSq_apply]

theorem normalized_apply (H : FVec Ideal S5000x64 .f32) (p : Fin 5000) (q : Fin 64) :
    normalized H (ix2 p q)
      = max (Ideal.div (H (ix2 p q)) (max (Ideal.sqrt (∑ j : Fin 64, H (ix2 p j) * H (ix2 p j))) eps))
          (Ideal.ofBits .f32 0x00000000#32) := by
  have e := Cert.SupCon.Ker.broadcastTo_a1_ab_apply (rowLen H) broadcasts_S5000x1_S5000x64 p q
  show max (Ideal.div (H (ix2 p q)) (broadcastTo S5000x64 (rowLen H) broadcasts_S5000x1_S5000x64 (ix2 p q)))
      (Ideal.ofBits .f32 0x00000000#32) = _
  rw [e, rowLen_apply]

/-- A normalized affine block is `dense 5000` of the loads. -/
theorem normalized_affine (x0 x1 : FVec Ideal S5000x64 .f32) (x2 : FVec Ideal S64x64 .bf16) (x3 : FVec Ideal S1x64 .f32)
    (x4 : FVec Ideal S64x64 .bf16) : normalized (affine x0 x1 x2 x3 x4) = dense 5000 x0 x1 x2 x3 x4 := by
  funext i
  obtain ⟨p, q, rfl⟩ : ∃ (p : Fin 5000) (q : Fin 64), i = ix2 p q := ⟨i 0, i 1, eq_ix2 i⟩
  rw [normalized_apply, dense_apply]
  unfold rowOut
  simp only [affine_apply]

/-- The first call's stored value. -/
theorem pay0_eq (x0 x1 : Vec Ideal S5000x64 .f32) (x2 : Vec Ideal S64x64 .bf16) (x3 : Vec Ideal S1x64 .f32)
    (x4 : Vec Ideal S64x64 .bf16) : k0_pay1 (F := Ideal) x0 x1 x2 x3 x4 = dense 5000 x0 x1 x2 x3 x4 := by
  rw [← normalized_affine]
  unfold k0_pay1 normalized rowLen rowSq affine
  simp only [shapeCast_self]

/-- The second call's stored value. -/
theorem pay1_eq (x0 x1 : Vec Ideal S5000x64 .f32) (x2 : Vec Ideal S64x64 .bf16) (x3 : Vec Ideal S1x64 .f32)
    (x4 : Vec Ideal S64x64 .bf16) : k1_pay1 (F := Ideal) x0 x1 x2 x3 x4 = dense 5000 x0 x1 x2 x3 x4 := by
  rw [← normalized_affine]
  unfold k1_pay1 normalized rowLen rowSq affine
  simp only [shapeCast_self]

end Cert.KernelIdeal.Body

end
-- ==== Proof.KernelArray.lean ====
/-
  From the blocks to the arrays: what each pallas_call leaves in its output array.

  Each call runs over 20 grid points; point `t` reads rows `5000 t … 5000 t + 4999` of the aggregated features and of
  the node features, the whole weight matrices and the whole bias row, and writes back the same rows of the output.
  Since a row of `SageNorm.dense` reads only that row of its operands, what point `t` writes back is block `t` of
  `dense 100000` of the arrays as the region finds them; the 20 blocks cover the array (row `r` lies in block
  `r / 5000`), so the output array ends holding `dense 100000` of the region's input arrays. Stated at any contents
  `V` of the buffers at the region's entry.
-/
import proofs.«105326_j22162031247565_1_alg».proof.Proof.Gen.KernelIdeal.Frame
import proofs.«105326_j22162031247565_1_alg».proof.Proof.KernelBody
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageNorm

variable (V : (c : Dev nD) → (b : Ref sig .tc) → Buf (Elt Ideal) ((c : Thread nD τ).loc b))

theorem hz : (![0, 0] : Fin 2 → Nat) = fun _ => 0 := funext fun a => by fin_cases a <;> rfl

/-! ## The first call -/

/-- The printed index maps over the grid: the two row-blocked inputs move with the output, the weights and the bias
    stay at block 0, and the output's row block stays below 20. -/
theorem idx_facts0 : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every row block is some point's. -/
theorem idx_onto0 : ∀ q0 : Fin 20, ∃ t : Fin cfg0.N, win0_5.index t = ![q0.val, 0] :=
  (by decide +kernel : ∀ q0 : Fin 20, ∃ t : Fin grid0.N, win0_5.index t = ![q0.val, 0])

/-- What point `t` writes back is block `t` of `dense 100000` of the region's input arrays. -/
theorem flushed0_eq (c : Dev nD) (t : Fin cfg0.N) :
    (dat0 V c).flushed 5 t = ((cfg0.win 5).blk t).view.read (Elt Ideal)
      (dense 100000 (V c main_v24) (V c main_arg0) (V c main_v26) (V c main_v29) (V c main_v28)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  rw [Body.pay0_eq]
  obtain ⟨e0, e1, e2, e3, e4, e5, e6, e7, e8, e9, e10, e11⟩ := idx_facts0 t
  funext y
  obtain ⟨p, q, rfl⟩ : ∃ (p : Fin 5000) (q : Fin 64), y = ix2 p q := ⟨y 0, y 1, eq_ix2 y⟩
  have hP : win0_5.index t (0 : Fin 2) * 5000 + p.val < 100000 := by have := p.isLt; omega
  show dense 5000 (iblk0 V c 0 t) (iblk0 V c 1 t) (iblk0 V c 2 t) (iblk0 V c 3 t) (iblk0 V c 4 t) (ix2 p q)
    = dense 100000 (V c main_v24) (V c main_arg0) (V c main_v26) (V c main_v29) (V c main_v28)
        (((cfg0.win 5).blk t).view.emb (ix2 p q))
  have hemb : ((cfg0.win 5).blk t).view.emb (ix2 p q)
      = ix2 (⟨win0_5.index t (0 : Fin 2) * 5000 + p.val, hP⟩ : Fin 100000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 64 + 1 * q.val = q.val; omega
  rw [hemb]
  refine dense_block _ _ _ _ _ _ _ _ _ _ _ p q ?_ ?_ ?_ ?_ ?_
  · intro k
    show V c main_v24 (((cfg0.win 0).blk t).view.emb (ix2 p k)) = V c main_v24 (ix2 _ k)
    refine congrArg (V c main_v24) (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 64 + 1 * k.val = k.val; omega
  · intro k
    show V c main_arg0 (((cfg0.win 1).blk t).view.emb (ix2 p k)) = V c main_arg0 (ix2 _ k)
    refine congrArg (V c main_arg0) (funext fun a => Fin.ext ?_)
    match a with
    | ⟨0, _⟩ => show win0_1.index t (0 : Fin 2) * 5000 + 1 * p.val = win0_5.index t (0 : Fin 2) * 5000 + p.val; omega
    | ⟨1, _⟩ => show win0_1.index t (1 : Fin 2) * 64 + 1 * k.val = k.val; omega
  · funext z
    show V c main_v26 (((cfg0.win 2).blk t).view.emb z) = V c main_v26 z
    refine congrArg (V c main_v26) (funext fun a => Fin.ext ?_)
    match a with
    | ⟨0, _⟩ => show win0_2.index t (0 : Fin 2) * 64 + 1 * (z 0).val = (z 0).val; omega
    | ⟨1, _⟩ => show win0_2.index t (1 : Fin 2) * 64 + 1 * (z 1).val = (z 1).val; omega
  · funext z
    show V c main_v29 (((cfg0.win 3).blk t).view.emb z) = V c main_v29 z
    refine congrArg (V c main_v29) (funext fun a => Fin.ext ?_)
    match a with
    | ⟨0, _⟩ => show win0_3.index t (0 : Fin 2) * 1 + 1 * (z 0).val = (z 0).val; omega
    | ⟨1, _⟩ => show win0_3.index t (1 : Fin 2) * 64 + 1 * (z 1).val = (z 1).val; omega
  · funext z
    show V c main_v28 (((cfg0.win 4).blk t).view.emb z) = V c main_v28 z
    refine congrArg (V c main_v28) (funext fun a => Fin.ext ?_)
    match a with
    | ⟨0, _⟩ => show win0_4.index t (0 : Fin 2) * 64 + 1 * (z 0).val = (z 0).val; omega
    | ⟨1, _⟩ => show win0_4.index t (1 : Fin 2) * 64 + 1 * (z 1).val = (z 1).val; omega

/-- An index of the output array is in point `t`'s block iff each coordinate is in the block's range. -/
theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v30).slice (win0_5.rect t)).set ↔ _
  rw [View.set_slice_whole, Rect.mem_set_unit]
  exact Iff.rfl

/-- The blocks cover the output array: row `r` is in block `r / 5000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The first call's output array after its run. -/
theorem final0 (c : Dev nD) : (dat0 V c).arrAt 5 cfg0.N
    = dense 100000 (V c main_v24) (V c main_arg0) (V c main_v26) (V c main_v29) (V c main_v28) :=
  (dat0 V c).arrAt_eq_of_cover 5 _ (fun t _ => flushed0_eq V c t) (cover0)

/-! ## The second call -/

theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

theorem idx_onto1 : ∀ q0 : Fin 20, ∃ t : Fin cfg1.N, win1_5.index t = ![q0.val, 0] :=
  (by decide +kernel : ∀ q0 : Fin 20, ∃ t : Fin grid1.N, win1_5.index t = ![q0.val, 0])

theorem flushed1_eq (c : Dev nD) (t : Fin cfg1.N) :
    (dat1 V c).flushed 5 t = ((cfg1.win 5).blk t).view.read (Elt Ideal)
      (dense 100000 (V c main_v42) (V c main_v30) (V c main_v44) (V c main_v47) (V c main_v46)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  rw [Body.pay1_eq]
  obtain ⟨e0, e1, e2, e3, e4, e5, e6, e7, e8, e9, e10, e11⟩ := idx_facts1 t
  funext y
  obtain ⟨p, q, rfl⟩ : ∃ (p : Fin 5000) (q : Fin 64), y = ix2 p q := ⟨y 0, y 1, eq_ix2 y⟩
  have hP : win1_5.index t (0 : Fin 2) * 5000 + p.val < 100000 := by have := p.isLt; omega
  show dense 5000 (iblk1 V c 0 t) (iblk1 V c 1 t) (iblk1 V c 2 t) (iblk1 V c 3 t) (iblk1 V c 4 t) (ix2 p q)
    = dense 100000 (V c main_v42) (V c main_v30) (V c main_v44) (V c main_v47) (V c main_v46)
        (((cfg1.win 5).blk t).view.emb (ix2 p q))
  have hemb : ((cfg1.win 5).blk t).view.emb (ix2 p q)
      = ix2 (⟨win1_5.index t (0 : Fin 2) * 5000 + p.val, hP⟩ : Fin 100000) q := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 64 + 1 * q.val = q.val; omega
  rw [hemb]
  refine dense_block _ _ _ _ _ _ _ _ _ _ _ p q ?_ ?_ ?_ ?_ ?_
  · intro k
    show V c main_v42 (((cfg1.win 0).blk t).view.emb (ix2 p k)) = V c main_v42 (ix2 _ k)
    refine congrArg (V c main_v42) (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 64 + 1 * k.val = k.val; omega
  · intro k
    show V c main_v30 (((cfg1.win 1).blk t).view.emb (ix2 p k)) = V c main_v30 (ix2 _ k)
    refine congrArg (V c main_v30) (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 64 + 1 * k.val = k.val; omega
  · funext z
    show V c main_v44 (((cfg1.win 2).blk t).view.emb z) = V c main_v44 z
    refine congrArg (V c main_v44) (funext fun a => Fin.ext ?_)
    match a with
    | ⟨0, _⟩ => show win1_2.index t (0 : Fin 2) * 64 + 1 * (z 0).val = (z 0).val; omega
    | ⟨1, _⟩ => show win1_2.index t (1 : Fin 2) * 64 + 1 * (z 1).val = (z 1).val; omega
  · funext z
    show V c main_v47 (((cfg1.win 3).blk t).view.emb z) = V c main_v47 z
    refine congrArg (V c main_v47) (funext fun a => Fin.ext ?_)
    match a with
    | ⟨0, _⟩ => show win1_3.index t (0 : Fin 2) * 1 + 1 * (z 0).val = (z 0).val; omega
    | ⟨1, _⟩ => show win1_3.index t (1 : Fin 2) * 64 + 1 * (z 1).val = (z 1).val; omega
  · funext z
    show V c main_v46 (((cfg1.win 4).blk t).view.emb z) = V c main_v46 z
    refine congrArg (V c main_v46) (funext fun a => Fin.ext ?_)
    match a with
    | ⟨0, _⟩ => show win1_4.index t (0 : Fin 2) * 64 + 1 * (z 0).val = (z 0).val; omega
    | ⟨1, _⟩ => show win1_4.index t (1 : Fin 2) * 64 + 1 * (z 1).val = (z 1).val; omega

theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v48).slice (win1_5.rect t)).set ↔ _
  rw [View.set_slice_whole, Rect.mem_set_unit]
  exact Iff.rfl

theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The second call's output array after its run. -/
theorem final1 (c : Dev nD) : (dat1 V c).arrAt 5 cfg1.N
    = dense 100000 (V c main_v42) (V c main_v30) (V c main_v44) (V c main_v47) (V c main_v46) :=
  (dat1 V c).arrAt_eq_of_cover 5 _ (fun t _ => flushed1_eq V c t) (cover1)

end Cert.KernelIdeal.Arrays

end
-- ==== Proof.KernelHost.lean ====
/-
  The host side of the idealized kernel program: what each pallas_call's input arrays hold, and the result.

  Before either call the host aggregates the neighbours' features: it gathers the rows of the feature array at the
  edges' source nodes (a negative index wrapped by 100000), adds them into the rows of the edges' target nodes, and
  scales each row by one over the node's clamped in-degree. `agg feat ei` is that array as ONE function of the feature
  array and the edge list, the gather and the scatter-add kept as the host's own operations. The weights reach a call
  transposed and narrowed, the bias reshaped to one row. The first call's node features are the program's first
  argument, the second call's are the first call's output; so with `layer feat` the dense part of a layer over
  `agg feat` and `feat`, the program's result is `layer (layer x)`.
-/
import proofs.«105326_j22162031247565_1_alg».proof.Proof.Gen.KernelIdeal.Frame
import proofs.«105326_j22162031247565_1_alg».proof.Proof.KernelArray
import Idealize.ShloMosaic.Lib.StableHlo.Run

set_option maxRecDepth 16384

noncomputable section

namespace Cert.KernelIdeal.HostSide

open Idealize.ShloMosaic Idealize.ShloMosaic.TcCoe Idealize.ShloMosaic.StableHlo Idealize.SL.Sem
open Cert.KernelIdeal Cert.KernelIdeal.Facts₀ Cert.SageNorm
open Cert.KernelIdeal.Gen (hostOps0 hostOps1 W0 W1 W2 W3 W4 V1 V2 V3 V4 dat0 dat1 W2_arr W2_of_ne W4_arr W4_of_ne)

/-! ## The aggregation as one function -/

/-- Row `r` of the edge list, as a vector of 1600000 indices. -/
def edgeRow0 (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000
def edgeRow1 (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- One over each node's in-degree clamped below by one, as one column. -/
def degInv (dst : (⟨S1600000, .i32⟩ : BufTy).Contents (Elt Ideal)) : FVec Ideal S100000x1 .f32 :=
  broadcastInDim S100000x1 ![0] bcast_S100000_S100000x1_0
    (Host.divf (broadcastInDim S100000 ![] bcast_S_S100000 (constant S_ .f32 0x3F800000#32))
      (maximumf (Host.scatterAdd scatter_S100000_S1600000x1_S1600000_n_0_0_1
          (broadcastInDim S100000 ![] bcast_S_S100000 (constant S_ .f32 0x00000000#32))
          (broadcastInDim S1600000x1 ![0] bcast_S1600000_S1600000x1_0 dst)
          (broadcastInDim S1600000 ![] bcast_S_S1600000 (constant S_ .f32 0x3F800000#32)))
        (broadcastInDim S100000 ![] bcast_S_S100000 (constant S_ .f32 0x3F800000#32))))

/-- The mean of the neighbours' feature rows, from the source indices, the target indices and the degree column. -/
def aggOf (feat : FVec Ideal S100000x64 .f32) (src dst : (⟨S1600000, .i32⟩ : BufTy).Contents (Elt Ideal))
    (dinv : FVec Ideal S100000x1 .f32) : FVec Ideal S100000x64 .f32 :=
  mulf (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164 feat
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x64 ![0, 1] bcast_S100000x1_S100000x64_0_1 dinv)

/-- The aggregated features of a feature array over an edge list. -/
def agg (feat : FVec Ideal S100000x64 .f32) (ei : (⟨S2x1600000, .i32⟩ : BufTy).Contents (Elt Ideal)) :
    FVec Ideal S100000x64 .f32 :=
  aggOf feat (edgeRow0 ei) (edgeRow1 ei) (degInv (edgeRow1 ei))

/-- One layer as the kernel program computes it. -/
def layer (feat : FVec Ideal S100000x64 .f32) (ei : (⟨S2x1600000, .i32⟩ : BufTy).Contents (Elt Ideal))
    (Wl : FVec Ideal S64x64 .f32) (bl : FVec Ideal S64 .f32) (Wr : FVec Ideal S64x64 .f32) : FVec Ideal S100000x64 .f32 :=
  dense 100000 (agg feat ei) feat
    (truncf .bf16 (transpose S64x64 [1, 0] Wl transposes_S64x64_S64x64_1_0) bitsLt_bf16_f32)
    (shapeCast S1x64 bl shapeCasts_S64_S1x64)
    (truncf .bf16 (transpose S64x64 [1, 0] Wr transposes_S64x64_S64x64_1_0) bitsLt_bf16_f32)

/-! ## The first stretch of host operations, read at the buffers the calls use -/

section Stretch0
variable (Wv : Valuation τ sig (Elt Ideal))

theorem ops0_v1 : StableHlo.after hostOps0 Wv (Proc.devRef .tc main_v1) = edgeRow0 (Wv (Proc.devRef .tc main_arg1)) := by
  after_results_simp; rfl
theorem ops0_v3 : StableHlo.after hostOps0 Wv (Proc.devRef .tc main_v3) = edgeRow1 (Wv (Proc.devRef .tc main_arg1)) := by
  after_results_simp; rfl
theorem ops0_v12 : StableHlo.after hostOps0 Wv (Proc.devRef .tc main_v12) = degInv (edgeRow1 (Wv (Proc.devRef .tc main_arg1))) := by
  after_results_simp; rfl
theorem ops0_v24 : StableHlo.after hostOps0 Wv (Proc.devRef .tc main_v24)
    = agg (Wv (Proc.devRef .tc main_arg0)) (Wv (Proc.devRef .tc main_arg1)) := by
  after_results_simp; rfl
theorem ops0_v26 : StableHlo.after hostOps0 Wv (Proc.devRef .tc main_v26)
    = truncf (F := Ideal) .bf16 (transpose S64x64 [1, 0] (Wv (Proc.devRef .tc main_arg2)) transposes_S64x64_S64x64_1_0) bitsLt_bf16_f32 := by
  after_results_simp
theorem ops0_v28 : StableHlo.after hostOps0 Wv (Proc.devRef .tc main_v28)
    = truncf (F := Ideal) .bf16 (transpose S64x64 [1, 0] (Wv (Proc.devRef .tc main_arg4)) transposes_S64x64_S64x64_1_0) bitsLt_bf16_f32 := by
  after_results_simp
theorem ops0_v29 : StableHlo.after hostOps0 Wv (Proc.devRef .tc main_v29)
    = shapeCast S1x64 (Wv (Proc.devRef .tc main_arg3)) shapeCasts_S64_S1x64 := by
  after_results_simp; rfl
theorem ops0_arg (b : Ref sig .tc) (hb : b = main_arg0 ∨ b = main_arg1 ∨ b = main_arg5 ∨ b = main_arg6 ∨ b = main_arg7) :
    StableHlo.after hostOps0 Wv (Proc.devRef .tc b) = Wv (Proc.devRef .tc b) := by
  rcases hb with rfl | rfl | rfl | rfl | rfl <;> (after_results_simp <;> rfl)

end Stretch0

/-! ## The second stretch -/

section Stretch1
variable (Wv : Valuation τ sig (Elt Ideal))

theorem ops1_v42 : StableHlo.after hostOps1 Wv (Proc.devRef .tc main_v42)
    = aggOf (Wv (Proc.devRef .tc main_v30)) (Wv (Proc.devRef .tc main_v1)) (Wv (Proc.devRef .tc main_v3))
        (Wv (Proc.devRef .tc main_v12)) := by
  after_results_simp; rfl
theorem ops1_v30 : StableHlo.after hostOps1 Wv (Proc.devRef .tc main_v30) = Wv (Proc.devRef .tc main_v30) := by
  after_results_simp <;> rfl
theorem ops1_v44 : StableHlo.after hostOps1 Wv (Proc.devRef .tc main_v44)
    = truncf (F := Ideal) .bf16 (transpose S64x64 [1, 0] (Wv (Proc.devRef .tc main_arg5)) transposes_S64x64_S64x64_1_0) bitsLt_bf16_f32 := by
  after_results_simp
theorem ops1_v46 : StableHlo.after hostOps1 Wv (Proc.devRef .tc main_v46)
    = truncf (F := Ideal) .bf16 (transpose S64x64 [1, 0] (Wv (Proc.devRef .tc main_arg7)) transposes_S64x64_S64x64_1_0) bitsLt_bf16_f32 := by
  after_results_simp
theorem ops1_v47 : StableHlo.after hostOps1 Wv (Proc.devRef .tc main_v47)
    = shapeCast S1x64 (Wv (Proc.devRef .tc main_arg6)) shapeCasts_S64_S1x64 := by
  after_results_simp; rfl

end Stretch1

/-! ## The result -/

variable (m : (ℓ : Loc nD τ sig) → Buf (Elt Ideal) ℓ) (ρ : Dev nD → PrngReg)

/-- The first call's output array: one layer over the program's first argument. -/
theorem first_out (c : Dev nD) : W2 m ρ c (Proc.devRef .tc main_v30)
    = layer (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (W2_arr m ρ c 5).trans ((Arrays.final0 (V1 m ρ) c).trans ?_)
  show dense 100000 (StableHlo.after hostOps0 (W0 m ρ c) (Proc.devRef .tc main_v24))
      (StableHlo.after hostOps0 (W0 m ρ c) (Proc.devRef .tc main_arg0))
      (StableHlo.after hostOps0 (W0 m ρ c) (Proc.devRef .tc main_v26))
      (StableHlo.after hostOps0 (W0 m ρ c) (Proc.devRef .tc main_v29))
      (StableHlo.after hostOps0 (W0 m ρ c) (Proc.devRef .tc main_v28)) = _
  rw [ops0_v24, ops0_arg _ main_arg0 (.inl rfl), ops0_v26, ops0_v29, ops0_v28]
  rfl

/-- What the second stretch finds in a buffer the first call does not write is what the first stretch left. -/
theorem W2_keep (c : Dev nD) (b : Ref sig .tc) (hb : ∀ w, Pipeline.arrRef spec0 w ≠ b) :
    W2 m ρ c (Proc.devRef .tc b) = StableHlo.after hostOps0 (W0 m ρ c) (Proc.devRef .tc b) :=
  W2_of_ne m ρ c b hb

/-- The program's result: two layers over the first argument. -/
theorem result_eq (c : Dev nD) : W4 m ρ c (Proc.devRef .tc main_v48)
    = layer (layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)))
        (m ((c.tc : Thread nD τ).loc main_arg1)) (m ((c.tc : Thread nD τ).loc main_arg5))
        (m ((c.tc : Thread nD τ).loc main_arg6)) (m ((c.tc : Thread nD τ).loc main_arg7)) := by
  refine (W4_arr m ρ c 5).trans ((Arrays.final1 (V3 m ρ) c).trans ?_)
  show dense 100000 (StableHlo.after hostOps1 (W2 m ρ c) (Proc.devRef .tc main_v42))
      (StableHlo.after hostOps1 (W2 m ρ c) (Proc.devRef .tc main_v30))
      (StableHlo.after hostOps1 (W2 m ρ c) (Proc.devRef .tc main_v44))
      (StableHlo.after hostOps1 (W2 m ρ c) (Proc.devRef .tc main_v47))
      (StableHlo.after hostOps1 (W2 m ρ c) (Proc.devRef .tc main_v46)) = _
  rw [ops1_v42, ops1_v30, ops1_v44, ops1_v47, ops1_v46, first_out,
    W2_keep m ρ c main_v1 (by decide), W2_keep m ρ c main_v3 (by decide), W2_keep m ρ c main_v12 (by decide),
    W2_keep m ρ c main_arg5 (by decide), W2_keep m ρ c main_arg6 (by decide), W2_keep m ρ c main_arg7 (by decide),
    ops0_v1, ops0_v3, ops0_v12, ops0_arg _ main_arg5 (.inr (.inr (.inl rfl))),
    ops0_arg _ main_arg6 (.inr (.inr (.inr (.inl rfl)))), ops0_arg _ main_arg7 (.inr (.inr (.inr (.inr rfl))))]
  rfl

end Cert.KernelIdeal.HostSide

end
-- ==== Proof.LibHostIdx.lean ====
/-
  Host operations read one entry at a time at the exact extended reals, for ANY shape: a square root and a quotient
  entry by entry, a scalar constant laid over a shape as the extended real its word encodes, and a vector reshaped to
  one row as the same row the vector's broadcast along axis 1 gives. Stated over a variable shape, they rewrite a
  reading at an index of an array of any extent without unfolding the layout operation there (at extents beyond the
  elaborator's recursion depth, 100000 rows say, unfolding by `show` fails where these rewrite).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibHostIdx

open Idealize.ShloMosaic Idealize.ShloMosaic.ValueIdx

/-- A square root on the host, an entry at a time. -/
theorem hostSqrt_apply {s : Shape} {φ : FTy} (x : FVec Ideal s φ) (i : s.Idx) : Host.sqrt x i = Ideal.sqrt (x i) := rfl

/-- A quotient on the host, an entry at a time. -/
theorem hostDivf_apply {s : Shape} {φ : FTy} (a b : FVec Ideal s φ) (i : s.Idx) :
    Host.divf a b i = Ideal.div (a i) (b i) := rfl

/-- A scalar constant laid over any shape reads, at every index, the extended real its word encodes. -/
theorem splat_apply {t : Shape} {φ : FTy} (h : (⟨0, ![]⟩ : Shape).BroadcastsInDim t ![]) (w : BitVec φ.bits) (i : t.Idx) :
    broadcastInDim t ![] h (constant (F := Ideal) ⟨0, ![]⟩ φ w) i = Ideal.ofBits φ w := rfl

/-- A vector reshaped to one row is the vector broadcast along axis 1 to one row. -/
theorem oneRow_eq {α : Type} {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, q, rfl⟩ : ∃ (u : Fin 1) (q : Fin n), i = ix2 u q := ⟨i 0, i 1, eq_ix2 i⟩
  obtain rfl : u = 0 := Subsingleton.elim _ _
  rw [shapeCast_a_1a_apply]
  exact (broadcastInDim_apply ![1] hd x (ix2 (0 : Fin 1) q) (ix1 q) (by
    intro a
    match a with
    | ⟨0, _⟩ =>
      show q.val = if n = 1 then 0 else q.val
      split
      · have e : q.val < n := q.isLt; omega
      · rfl)).symm

end Cert.LibHostIdx

end
-- ==== Proof.RefLayer.lean ====
/-
  The reference's dense part of one layer, in the host's spelling, is `SageNorm.dense 100000`.

  On the host a layer is: the two matrix products against the transposed weights, the bias vector laid as one row and
  that row laid down all the rows, the sum along each row of the squares (from a zero initial value), its square root
  as one column clamped below by ε, that column laid along the columns, the quotient, and the maximum with zero.
  Read at `(p, q)`: a product is the sum over the contracted coordinate, the laid bias is its entry `q`, the row sum
  is `0 + ∑`, the laid column is its entry `p`. That is `SageNorm.rowOut` of rows `p` of the operands, with the
  weights read through the transposition and the bias through its one-row form.
-/
import proofs.«105326_j22162031247565_1_alg».proof.ReferenceIdeal
import proofs.«105326_j22162031247565_1_alg».proof.Proof.NormLayer
import proofs.«105326_j22162031247565_1_alg».proof.Proof.LibRowOps
import proofs.«105326_j22162031247565_1_alg».proof.Proof.LibHostIdx
import Idealize.ShloMosaic.Lib.KernelVsHost

noncomputable section

namespace Cert.ReferenceIdeal.Layer

open Idealize.ShloMosaic Idealize.ShloMosaic.ValueIdx Cert.ReferenceIdeal Cert.ReferenceIdeal.Facts₀
open Cert.SageNorm Cert.LibHostIdx

variable [Cert.ReferenceIdeal.Facts]

/-- The affine part on the host. -/
def affine (A X : FVec Ideal S100000x64 .f32) (Wl : FVec Ideal S64x64 .f32) (bl : FVec Ideal S64 .f32)
    (Wr : FVec Ideal S64x64 .f32) : FVec Ideal S100000x64 .f32 :=
  addf (addf (Host.dotGeneral dot_S100000x64_S64x64_S100000x64_1_0_0_1_n_n none A
        (transpose S64x64 [1, 0] Wl transposes_S64x64_S64x64_1_0))
      (broadcastInDim S100000x64 ![0, 1] bcast_S1x64_S100000x64_0_1 (broadcastInDim S1x64 ![1] bcast_S64_S1x64_1 bl)))
    (Host.dotGeneral dot_S100000x64_S64x64_S100000x64_1_0_0_1_n_n none X
      (transpose S64x64 [1, 0] Wr transposes_S64x64_S64x64_1_0))

/-- The rows' clamped lengths on the host, as one column. -/
def rowLen (H : FVec Ideal S100000x64 .f32) : FVec Ideal S100000x1 .f32 :=
  maximumf (Host.sqrt (broadcastInDim S100000x1 ![0] bcast_S100000_S100000x1_0
      (Host.reduceAdd (mulf H H) (constant S_ .f32 0x00000000#32) reducesTo_S100000x64_S100000_d1 h_S_)))
    (broadcastInDim S100000x1 ![] bcast_S_S100000x1 (constant S_ .f32 0x2B8CBCCC#32))

/-- Every row over its clamped length, rectified, on the host. -/
def normalized (H : FVec Ideal S100000x64 .f32) : FVec Ideal S100000x64 .f32 :=
  maximumf (Host.divf H (broadcastInDim S100000x64 ![0, 1] bcast_S100000x1_S100000x64_0_1 (rowLen H)))
    (broadcastInDim S100000x64 ![] bcast_S_S100000x64 (constant S_ .f32 0x00000000#32))

theorem affine_apply (A X : FVec Ideal S100000x64 .f32) (Wl : FVec Ideal S64x64 .f32) (bl : FVec Ideal S64 .f32)
    (Wr : FVec Ideal S64x64 .f32) (p : Fin 100000) (q : Fin 64) :
    affine A X Wl bl Wr (ix2 p q)
      = lin (fun k => A (ix2 p k)) (fun k => X (ix2 p k))
          (fun k q => transpose S64x64 [1, 0] Wl transposes_S64x64_S64x64_1_0 (ix2 k q))
          (fun q => broadcastInDim S1x64 ![1] bcast_S64_S1x64_1 bl (ix2 (0 : Fin 1) q))
          (fun k q => transpose S64x64 [1, 0] Wr transposes_S64x64_S64x64_1_0 (ix2 k q)) q := by
  have e1 := Cert.LibRowOps.dotGeneral_plain_apply dot_S100000x64_S64x64_S100000x64_1_0_0_1_n_n_wf none A
    (transpose S64x64 [1, 0] Wl transposes_S64x64_S64x64_1_0) p q
  have e2 := Cert.LibRowOps.dotGeneral_plain_apply dot_S100000x64_S64x64_S100000x64_1_0_0_1_n_n_wf none X
    (transpose S64x64 [1, 0] Wr transposes_S64x64_S64x64_1_0) p q
  have e3 := broadcastInDim_oneRow_apply bcast_S1x64_S100000x64_0_1 (broadcastInDim S1x64 ![1] bcast_S64_S1x64_1 bl) p q
  show Host.dotGeneral dot_S100000x64_S64x64_S100000x64_1_0_0_1_n_n none A
        (transpose S64x64 [1, 0] Wl transposes_S64x64_S64x64_1_0) (ix2 p q)
      + broadcastInDim S100000x64 ![0, 1] bcast_S1x64_S100000x64_0_1 (broadcastInDim S1x64 ![1] bcast_S64_S1x64_1 bl) (ix2 p q)
      + Host.dotGeneral dot_S100000x64_S64x64_S100000x64_1_0_0_1_n_n none X
        (transpose S64x64 [1, 0] Wr transposes_S64x64_S64x64_1_0) (ix2 p q) = _
  exact congrArg₂ (· + ·) (congrArg₂ (· + ·) e1 e3) e2

theorem rowLen_apply (H : FVec Ideal S100000x64 .f32) (p : Fin 100000) :
    rowLen H (ix2 p (0 : Fin 1)) = max (Ideal.sqrt (∑ j : Fin 64, H (ix2 p j) * H (ix2 p j))) eps := by
  have e1 := Cert.LibRowOps.col1_host_apply
    (Host.reduceAdd (mulf H H) (constant S_ .f32 0x00000000#32) reducesTo_S100000x64_S100000_d1 h_S_)
    bcast_S100000_S100000x1_0 p
  have e2 := Cert.LibRowOps.rowSum_host_apply (mulf H H) (constant S_ .f32 0x00000000#32)
    reducesTo_S100000x64_S100000_d1 (by decide) h_S_ p
  unfold rowLen
  rw [maximumf_apply, hostSqrt_apply, splat_apply, e1, e2, constant_apply, Ideal.ofBits_zero_f32, zero_add]
  rfl

theorem normalized_apply (H : FVec Ideal S100000x64 .f32) (p : Fin 100000) (q : Fin 64) :
    normalized H (ix2 p q)
      = max (Ideal.div (H (ix2 p q)) (max (Ideal.sqrt (∑ j : Fin 64, H (ix2 p j) * H (ix2 p j))) eps))
          (Ideal.ofBits .f32 0x00000000#32) := by
  have e := Cert.LibRowOps.colBcast_host_apply (rowLen H) bcast_S100000x1_S100000x64_0_1 p q
  unfold normalized
  rw [maximumf_apply, hostDivf_apply, splat_apply, e, rowLen_apply]

/-- The host's layer is `dense 100000` with the weights read through the transposition and the bias through its
    one-row form. -/
theorem normalized_affine (A X : FVec Ideal S100000x64 .f32) (Wl : FVec Ideal S64x64 .f32) (bl : FVec Ideal S64 .f32)
    (Wr : FVec Ideal S64x64 .f32) :
    normalized (affine A X Wl bl Wr)
      = dense 100000 A X (transpose S64x64 [1, 0] Wl transposes_S64x64_S64x64_1_0)
          (broadcastInDim S1x64 ![1] bcast_S64_S1x64_1 bl) (transpose S64x64 [1, 0] Wr transposes_S64x64_S64x64_1_0) := by
  funext i
  obtain ⟨p, q, rfl⟩ : ∃ (p : Fin 100000) (q : Fin 64), i = ix2 p q := ⟨i 0, i 1, eq_ix2 i⟩
  rw [normalized_apply, dense_apply]
  unfold rowOut
  simp only [affine_apply]

end Cert.ReferenceIdeal.Layer

end
-- ==== Proof.RefRun.lean ====
/-
  The reference program's result as two layers.

  The reference aggregates the neighbours' features exactly as the kernel program's host side does — the same gather
  at the wrapped source indices, the same scatter-add into the target rows, the same scaling by one over the clamped
  in-degree — and then applies the dense part of a layer in the host's spelling. `agg` and `layer` name these as
  functions of the arrays; the generated run's result term is `layer (layer x)`, by unfolding the names.
-/
import proofs.«105326_j22162031247565_1_alg».proof.Proof.Gen.ReferenceIdeal.Run
import proofs.«105326_j22162031247565_1_alg».proof.Proof.RefLayer

set_option maxRecDepth 16384

noncomputable section

namespace Cert.ReferenceIdeal.HostSide

open Idealize.ShloMosaic Idealize.ShloMosaic.TcCoe Idealize.SL.Sem
open Cert.ReferenceIdeal Cert.ReferenceIdeal.Facts₀

def edgeRow0 (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000
def edgeRow1 (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- One over each node's in-degree clamped below by one, as one column. -/
def degInv (dst : (⟨S1600000, .i32⟩ : BufTy).Contents (Elt Ideal)) : FVec Ideal S100000x1 .f32 :=
  broadcastInDim S100000x1 ![0] bcast_S100000_S100000x1_0
    (Host.divf (broadcastInDim S100000 ![] bcast_S_S100000 (constant S_ .f32 0x3F800000#32))
      (maximumf (Host.scatterAdd scatter_S100000_S1600000x1_S1600000_n_0_0_1
          (broadcastInDim S100000 ![] bcast_S_S100000 (constant S_ .f32 0x00000000#32))
          (broadcastInDim S1600000x1 ![0] bcast_S1600000_S1600000x1_0 dst)
          (broadcastInDim S1600000 ![] bcast_S_S1600000 (constant S_ .f32 0x3F800000#32)))
        (broadcastInDim S100000 ![] bcast_S_S100000 (constant S_ .f32 0x3F800000#32))))

/-- The mean of the neighbours' feature rows, from the source indices, the target indices and the degree column. -/
def aggOf (feat : FVec Ideal S100000x64 .f32) (src dst : (⟨S1600000, .i32⟩ : BufTy).Contents (Elt Ideal))
    (dinv : FVec Ideal S100000x1 .f32) : FVec Ideal S100000x64 .f32 :=
  mulf (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164 feat
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x64 ![0, 1] bcast_S100000x1_S100000x64_0_1 dinv)

/-- The aggregated features of a feature array over an edge list. -/
def agg (feat : FVec Ideal S100000x64 .f32) (ei : (⟨S2x1600000, .i32⟩ : BufTy).Contents (Elt Ideal)) :
    FVec Ideal S100000x64 .f32 :=
  aggOf feat (edgeRow0 ei) (edgeRow1 ei) (degInv (edgeRow1 ei))

/-- One layer as the reference computes it. -/
def layer (feat : FVec Ideal S100000x64 .f32) (ei : (⟨S2x1600000, .i32⟩ : BufTy).Contents (Elt Ideal))
    (Wl : FVec Ideal S64x64 .f32) (bl : FVec Ideal S64 .f32) (Wr : FVec Ideal S64x64 .f32) : FVec Ideal S100000x64 .f32 :=
  Layer.normalized (Layer.affine (agg feat ei) feat Wl bl Wr)

/-- The run's result term is two layers over the first argument. -/
theorem res_eq (m : (ℓ : Loc nD τ sig) → Buf (Elt Ideal) ℓ) (c : Dev nD) :
    Cert.ReferenceIdeal.Value.res_main_v64 (F := Ideal) m c
      = layer (layer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)))
          (m ((c.tc : Thread nD τ).loc main_arg1)) (m ((c.tc : Thread nD τ).loc main_arg5))
          (m ((c.tc : Thread nD τ).loc main_arg6)) (m ((c.tc : Thread nD τ).loc main_arg7)) := by
  unfold Cert.ReferenceIdeal.Value.res_main_v64
  rfl

end Cert.ReferenceIdeal.HostSide

end
-- ==== Proof.Bridge.lean ====
/-
  The two programs' layers are one function.

  The kernel program's layer is `dense 100000` of the aggregated features, the node features, the transposed (and
  narrowed) weights and the bias reshaped to one row; the reference's layer in the host's spelling is `dense 100000` of
  the same arrays with the bias laid as one row by a broadcast. Narrowing is the identity on extended reals, a vector
  reshaped to one row and the vector broadcast to one row are the same row, and the aggregation is the same host
  operations on both sides. So the layers agree, and so do two layers in sequence.
-/
import proofs.«105326_j22162031247565_1_alg».proof.Proof.KernelHost
import proofs.«105326_j22162031247565_1_alg».proof.Proof.RefRun
import proofs.«105326_j22162031247565_1_alg».proof.Proof.LibHostIdx

set_option maxRecDepth 16384

noncomputable section

namespace Cert.Bridge

open Idealize.ShloMosaic Idealize.ShloMosaic.ValueIdx Cert.LibHostIdx

/-- One layer: the kernel program's and the reference's are the same array. -/
theorem layer_eq (feat : FVec Ideal Cert.KernelIdeal.S100000x64 .f32)
    (ei : (⟨Cert.KernelIdeal.S2x1600000, .i32⟩ : BufTy).Contents (Elt Ideal))
    (Wl : FVec Ideal Cert.KernelIdeal.S64x64 .f32) (bl : FVec Ideal Cert.KernelIdeal.S64 .f32)
    (Wr : FVec Ideal Cert.KernelIdeal.S64x64 .f32) :
    Cert.ReferenceIdeal.HostSide.layer feat ei Wl bl Wr = Cert.KernelIdeal.HostSide.layer feat ei Wl bl Wr := by
  unfold Cert.ReferenceIdeal.HostSide.layer
  rw [Cert.ReferenceIdeal.Layer.normalized_affine]
  unfold Cert.KernelIdeal.HostSide.layer
  rw [oneRow_eq bl Cert.KernelIdeal.Facts₀.shapeCasts_S64_S1x64 Cert.ReferenceIdeal.Facts₀.bcast_S64_S1x64_1]
  rfl

/-- Two layers in sequence. -/
theorem two_layers (x : FVec Ideal Cert.KernelIdeal.S100000x64 .f32)
    (ei : (⟨Cert.KernelIdeal.S2x1600000, .i32⟩ : BufTy).Contents (Elt Ideal))
    (Wl0 : FVec Ideal Cert.KernelIdeal.S64x64 .f32) (bl0 : FVec Ideal Cert.KernelIdeal.S64 .f32)
    (Wr0 : FVec Ideal Cert.KernelIdeal.S64x64 .f32) (Wl1 : FVec Ideal Cert.KernelIdeal.S64x64 .f32)
    (bl1 : FVec Ideal Cert.KernelIdeal.S64 .f32) (Wr1 : FVec Ideal Cert.KernelIdeal.S64x64 .f32) :
    Cert.ReferenceIdeal.HostSide.layer (Cert.ReferenceIdeal.HostSide.layer x ei Wl0 bl0 Wr0) ei Wl1 bl1 Wr1
      = Cert.KernelIdeal.HostSide.layer (Cert.KernelIdeal.HostSide.layer x ei Wl0 bl0 Wr0) ei Wl1 bl1 Wr1 := by
  rw [layer_eq x, layer_eq]

end Cert.Bridge

end
-- ==== Proof.lean ====
/-
  The certificate of a two-layer graph network: in each layer a node's neighbours' features are averaged (a gather at
  the edges' sources and a scatter-add at their targets, on the host), and the dense part — two 64×64 products, a
  bias, division of each row by its Euclidean length clamped below by 1e-12, and a rectifier — runs as a pallas_call
  over 20 blocks of 5000 rows, against a reference that does the same with jnp on the whole arrays.

  On the extended reals both programs compute, twice in sequence, the array whose row `p` is
      max (h / max (√(∑ j, h j · h j)) ε) 0,    h q = (∑ k, agg p k · Wl q k) + bl q + ∑ k, feat p k · Wr q k,
  where `agg` is the averaged neighbour features. The kernel's rounding of its products' operands to bf16 is the
  identity there; a product into a zero accumulator and the host's product are the same plain sum; the row sums agree
  (the host's starts from a zero it adds); and since a row of the result reads only that row of the operands, the 20
  blocks the kernel writes are the blocks of the whole-array function. No law that needs finite operands is used, so
  the precondition is never opened. The frames of the two kernel programs and the run of the reference are the
  generated ones; the ideal pass rewrote nothing, so `preserves` is trivial.
-/
import proofs.«105326_j22162031247565_1_alg».proof.Defs
import proofs.«105326_j22162031247565_1_alg».proof.Proof.Gen.Kernel
import proofs.«105326_j22162031247565_1_alg».proof.Proof.Gen.Kernel.Skeleton
import proofs.«105326_j22162031247565_1_alg».proof.Proof.Gen.Kernel.Launch
import proofs.«105326_j22162031247565_1_alg».proof.Proof.Gen.Kernel.Points
import proofs.«105326_j22162031247565_1_alg».proof.Proof.Gen.Kernel.Frame
import proofs.«105326_j22162031247565_1_alg».proof.Proof.Gen.KernelIdeal
import proofs.«105326_j22162031247565_1_alg».proof.Proof.Gen.KernelIdeal.Skeleton
import proofs.«105326_j22162031247565_1_alg».proof.Proof.Gen.KernelIdeal.Launch
import proofs.«105326_j22162031247565_1_alg».proof.Proof.Gen.KernelIdeal.Points
import proofs.«105326_j22162031247565_1_alg».proof.Proof.Gen.KernelIdeal.Frame
import proofs.«105326_j22162031247565_1_alg».proof.Proof.Gen.ReferenceIdeal
import proofs.«105326_j22162031247565_1_alg».proof.Proof.Gen.ReferenceIdeal.Run
import proofs.«105326_j22162031247565_1_alg».proof.Proof.Gen.Pre_finite_inputs
import proofs.«105326_j22162031247565_1_alg».proof.Proof.KernelRun
import proofs.«105326_j22162031247565_1_alg».proof.Proof.KernelHost
import proofs.«105326_j22162031247565_1_alg».proof.Proof.RefRun
import proofs.«105326_j22162031247565_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with two layers over the first argument; the layers are one function. -/
theorem algebraic : Cert.algebraic_KernelIdeal_ReferenceIdeal := by
  intro m ρ m' ρ' _ hagree
  refine ⟨fun c => Cert.KernelIdeal.HostSide.layer
      (Cert.KernelIdeal.HostSide.layer
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostSide.result_eq m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.HostSide.res_eq, h0, h1, h2, h3, h4, h5, h6, h7]
    exact Cert.Bridge.two_layers _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
